-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x256 : Shape := ⟨3, ![2, 512, 256]⟩
abbrev S_ : Shape := ⟨0, ![]⟩

class Facts : Prop where
  bcast_S_S2x512x256 : S_.BroadcastsInDim S2x512x256 (![] : Fin 0 → Fin S2x512x256.rank)
  reducesTo_S2x512x256_S_d0_1_2 : S2x512x256.ReducesTo [0, 1, 2] S_
  h_S_ : 0 < S_.numel

variable [Facts]

def fn {F : FTy → Type} [FloatOps F] (main_arg0 : FVec F S2x512x256 .f32) (main_arg1 : FVec F S2x512x256 .f32) (main_arg2 : FVec F S2x512x256 .f32) : IVec S_ 1 :=
  let main_v0 : FVec F S2x512x256 .f32 := Host.absf main_arg0
  let main_cst : FVec F S_ .f32 := constant S_ .f32 0x7F800000#32
  let main_v1 : FVec F S2x512x256 .f32 := broadcastInDim S2x512x256 ![] bcast_S_S2x512x256 main_cst
  let main_v2 : IVec S2x512x256 1 := cmpf .olt main_v0 main_v1
  let main_c : IVec S_ 1 := constantI S_ 1 1#1
  let main_v3 : IVec S_ 1 := (fun x v => Host.reduce IntOp.andi x v reducesTo_S2x512x256_S_d0_1_2 h_S_) main_v2 main_c
  let main_v4 : FVec F S2x512x256 .f32 := Host.absf main_arg1
  let main_cst_0 : FVec F S_ .f32 := constant S_ .f32 0x7F800000#32
  let main_v5 : FVec F S2x512x256 .f32 := broadcastInDim S2x512x256 ![] bcast_S_S2x512x256 main_cst_0
  let main_v6 : IVec S2x512x256 1 := cmpf .olt main_v4 main_v5
  let main_c_1 : IVec S_ 1 := constantI S_ 1 1#1
  let main_v7 : IVec S_ 1 := (fun x v => Host.reduce IntOp.andi x v reducesTo_S2x512x256_S_d0_1_2 h_S_) main_v6 main_c_1
  let main_v8 : IVec S_ 1 := andi main_v3 main_v7
  let main_v9 : FVec F S2x512x256 .f32 := Host.absf main_arg2
  let main_cst_2 : FVec F S_ .f32 := constant S_ .f32 0x7F800000#32
  let main_v10 : FVec F S2x512x256 .f32 := broadcastInDim S2x512x256 ![] bcast_S_S2x512x256 main_cst_2
  let main_v11 : IVec S2x512x256 1 := cmpf .olt main_v9 main_v10
  let main_c_3 : IVec S_ 1 := constantI S_ 1 1#1
  let main_v12 : IVec S_ 1 := (fun x v => Host.reduce IntOp.andi x v reducesTo_S2x512x256_S_d0_1_2 h_S_) main_v11 main_c_3
  let main_v13 : IVec S_ 1 := andi main_v8 main_v12
  main_v13
-- ==== Kernel.lean ====
abbrev S2x512x256 : Shape := ⟨3, ![2, 512, 256]⟩
abbrev S1x128x256 : Shape := ⟨3, ![1, 128, 256]⟩
abbrev S1x512x256 : Shape := ⟨3, ![1, 512, 256]⟩
abbrev S128x512 : Shape := ⟨2, ![128, 512]⟩
abbrev S128x256 : Shape := ⟨2, ![128, 256]⟩
abbrev S1x32x256 : Shape := ⟨3, ![1, 32, 256]⟩
abbrev S32x256 : Shape := ⟨2, ![32, 256]⟩
abbrev S128x1x256 : Shape := ⟨3, ![128, 1, 256]⟩
abbrev S128x32x256 : Shape := ⟨3, ![128, 32, 256]⟩
abbrev S128x32 : Shape := ⟨2, ![128, 32]⟩
abbrev S128 : Shape := ⟨1, ![128]⟩
abbrev S128x1 : Shape := ⟨2, ![128, 1]⟩
abbrev S512x256 : Shape := ⟨2, ![512, 256]⟩

abbrev nBuf : Space → Nat
  | .hbm => 4
  | .vmem => 9
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S2x512x256, .f32⟩
  | .local _ .vmem, ⟨0, _⟩ => ⟨S1x128x256, .f32⟩
  | .local _ .vmem, ⟨1, _⟩ => ⟨S1x128x256, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x128x256, .f32⟩
  | .local _ .vmem, ⟨7, _⟩ => ⟨S1x128x256, .f32⟩
  | .local _ .vmem, ⟨8, _⟩ => ⟨S128x512, .f32⟩
  | _, _ => ⟨S2x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  inb_S1x512x256_S1x32x256_0_0_0 : ∀ a, (![0, 0, 0] : Fin 3 → Nat) a + S1x32x256.size a ≤ S1x512x256.size a
  h_S1x32x256 : 0 < S1x32x256.numel
  shapeCasts_S1x32x256_S32x256 : S1x32x256.ShapeCasts S32x256
  shapeCasts_S32x256_S1x32x256 : S32x256.ShapeCasts S1x32x256
  shapeCasts_S128x256_S128x1x256 : S128x256.ShapeCasts S128x1x256
  broadcasts_S1x32x256_S128x32x256 : S1x32x256.Broadcasts S128x32x256
  broadcasts_S128x1x256_S128x32x256 : S128x1x256.Broadcasts S128x32x256
  reduces_S128x32x256_S128x32 : S128x32x256.Reduces [2] S128x32
  inb_S128x512_S128x32_0_0 : ∀ a, (![0, 0] : Fin 2 → Nat) a + S128x32.size a ≤ S128x512.size a
  h_S128x32 : 0 < S128x32.numel
  shapeCasts_S128x32_S128x32 : S128x32.ShapeCasts S128x32
  inb_S1x512x256_S1x32x256_0_32_0 : ∀ a, (![0, 32, 0] : Fin 3 → Nat) a + S1x32x256.size a ≤ S1x512x256.size a
  inb_S128x512_S128x32_0_32 : ∀ a, (![0, 32] : Fin 2 → Nat) a + S128x32.size a ≤ S128x512.size a
  inb_S1x512x256_S1x32x256_0_64_0 : ∀ a, (![0, 64, 0] : Fin 3 → Nat) a + S1x32x256.size a ≤ S1x512x256.size a
  inb_S128x512_S128x32_0_64 : ∀ a, (![0, 64] : Fin 2 → Nat) a + S128x32.size a ≤ S128x512.size a
  inb_S1x512x256_S1x32x256_0_96_0 : ∀ a, (![0, 96, 0] : Fin 3 → Nat) a + S1x32x256.size a ≤ S1x512x256.size a
  inb_S128x512_S128x32_0_96 : ∀ a, (![0, 96] : Fin 2 → Nat) a + S128x32.size a ≤ S128x512.size a
  inb_S1x512x256_S1x32x256_0_128_0 : ∀ a, (![0, 128, 0] : Fin 3 → Nat) a + S1x32x256.size a ≤ S1x512x256.size a
  inb_S128x512_S128x32_0_128 : ∀ a, (![0, 128] : Fin 2 → Nat) a + S128x32.size a ≤ S128x512.size a
  inb_S1x512x256_S1x32x256_0_160_0 : ∀ a, (![0, 160, 0] : Fin 3 → Nat) a + S1x32x256.size a ≤ S1x512x256.size a
  inb_S128x512_S128x32_0_160 : ∀ a, (![0, 160] : Fin 2 → Nat) a + S128x32.size a ≤ S128x512.size a
  inb_S1x512x256_S1x32x256_0_192_0 : ∀ a, (![0, 192, 0] : Fin 3 → Nat) a + S1x32x256.size a ≤ S1x512x256.size a
  inb_S128x512_S128x32_0_192 : ∀ a, (![0, 192] : Fin 2 → Nat) a + S128x32.size a ≤ S128x512.size a
  inb_S1x512x256_S1x32x256_0_224_0 : ∀ a, (![0, 224, 0] : Fin 3 → Nat) a + S1x32x256.size a ≤ S1x512x256.size a
  inb_S128x512_S128x32_0_224 : ∀ a, (![0, 224] : Fin 2 → Nat) a + S128x32.size a ≤ S128x512.size a
  inb_S1x512x256_S1x32x256_0_256_0 : ∀ a, (![0, 256, 0] : Fin 3 → Nat) a + S1x32x256.size a ≤ S1x512x256.size a
  inb_S128x512_S128x32_0_256 : ∀ a, (![0, 256] : Fin 2 → Nat) a + S128x32.size a ≤ S128x512.size a
  inb_S1x512x256_S1x32x256_0_288_0 : ∀ a, (![0, 288, 0] : Fin 3 → Nat) a + S1x32x256.size a ≤ S1x512x256.size a
  inb_S128x512_S128x32_0_288 : ∀ a, (![0, 288] : Fin 2 → Nat) a + S128x32.size a ≤ S128x512.size a
  inb_S1x512x256_S1x32x256_0_320_0 : ∀ a, (![0, 320, 0] : Fin 3 → Nat) a + S1x32x256.size a ≤ S1x512x256.size a
  inb_S128x512_S128x32_0_320 : ∀ a, (![0, 320] : Fin 2 → Nat) a + S128x32.size a ≤ S128x512.size a
  inb_S1x512x256_S1x32x256_0_352_0 : ∀ a, (![0, 352, 0] : Fin 3 → Nat) a + S1x32x256.size a ≤ S1x512x256.size a
  inb_S128x512_S128x32_0_352 : ∀ a, (![0, 352] : Fin 2 → Nat) a + S128x32.size a ≤ S128x512.size a
  inb_S1x512x256_S1x32x256_0_384_0 : ∀ a, (![0, 384, 0] : Fin 3 → Nat) a + S1x32x256.size a ≤ S1x512x256.size a
  inb_S128x512_S128x32_0_384 : ∀ a, (![0, 384] : Fin 2 → Nat) a + S128x32.size a ≤ S128x512.size a
  inb_S1x512x256_S1x32x256_0_416_0 : ∀ a, (![0, 416, 0] : Fin 3 → Nat) a + S1x32x256.size a ≤ S1x512x256.size a
  inb_S128x512_S128x32_0_416 : ∀ a, (![0, 416] : Fin 2 → Nat) a + S128x32.size a ≤ S128x512.size a
  inb_S1x512x256_S1x32x256_0_448_0 : ∀ a, (![0, 448, 0] : Fin 3 → Nat) a + S1x32x256.size a ≤ S1x512x256.size a
  inb_S128x512_S128x32_0_448 : ∀ a, (![0, 448] : Fin 2 → Nat) a + S128x32.size a ≤ S128x512.size a
  inb_S1x512x256_S1x32x256_0_480_0 : ∀ a, (![0, 480, 0] : Fin 3 → Nat) a + S1x32x256.size a ≤ S1x512x256.size a
  inb_S128x512_S128x32_0_480 : ∀ a, (![0, 480] : Fin 2 → Nat) a + S128x32.size a ≤ S128x512.size a
  inb_S128x512_S128x512_0_0 : ∀ a, (![0, 0] : Fin 2 → Nat) a + S128x512.size a ≤ S128x512.size a
  h_S128x512 : 0 < S128x512.numel
  reduces_S128x512_S128 : S128x512.Reduces [1] S128
  shapeCasts_S128_S128x1 : S128.ShapeCasts S128x1
  broadcasts_S128x1_S128x512 : S128x1.Broadcasts S128x512
  bitsLt_bf16_f32 : FTy.bits .bf16 < FTy.bits .f32
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  shapeCasts_S128x256_S1x128x256 : S128x256.ShapeCasts S1x128x256
  dot_S128x512_S512x256_S128x256_1_0_0_1_n_n_wf : DotDims.WF S128x512 S512x256 S128x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x256.size a ≤ S2x512x256.size a
  hwx0_0 : ∀ i : grid0.Coords, EltTy.bits .f32 = 32 ∨ (Rect.block (s := S2x512x256) S1x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x256.size a ≤ S2x512x256.size a
  hwx0_1 : ∀ i : grid0.Coords, EltTy.bits .f32 = 32 ∨ (Rect.block (s := S2x512x256) S1x512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x256.size a ≤ S2x512x256.size a
  hwx0_2 : ∀ i : grid0.Coords, EltTy.bits .f32 = 32 ∨ (Rect.block (s := S2x512x256) S1x512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x256.size a ≤ S2x512x256.size a
  hwx0_3 : ∀ i : grid0.Coords, EltTy.bits .f32 = 32 ∨ (Rect.block (s := S2x512x256) S1x128x256.size (cc0_transform_3 i) (hinb0_3 i)).WholeWords (EltTy.packing .f32)

variable [Facts₀]

def dot_S128x512_S512x256_S128x256_1_0_0_1_n_n : DotDims S128x512 S512x256 S128x256 where
  lhsContracting := [1]
  rhsContracting := [0]
  lhsNonContracting := [0]
  rhsNonContracting := [1]
  lhsBatch := []
  rhsBatch := []
  wf := dot_S128x512_S512x256_S128x256_1_0_0_1_n_n_wf

abbrev win0_0 : Pipeline.Window sig grid0 :=
  Pipeline.Window.ofSpec (Memref.whole main_arg0) S1x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x512x256 : Shape := ⟨3, ![2, 512, 256]⟩
abbrev S2x1x512x256 : Shape := ⟨4, ![2, 1, 512, 256]⟩
abbrev S2x512x1x256 : Shape := ⟨4, ![2, 512, 1, 256]⟩
abbrev S2x512x512x256 : Shape := ⟨4, ![2, 512, 512, 256]⟩
abbrev S_ : Shape := ⟨0, ![]⟩
abbrev S2x512x512 : Shape := ⟨3, ![2, 512, 512]⟩
abbrev S2x512 : Shape := ⟨2, ![2, 512]⟩
abbrev S2x512x1 : Shape := ⟨3, ![2, 512, 1]⟩

abbrev nBuf : Space → Nat
  | .hbm => 30
  | .vmem => 0
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S2x1x512x256, .f32⟩
  | .hbm, ⟨4, _⟩ => ⟨S2x512x1x256, .f32⟩
  | .hbm, ⟨5, _⟩ => ⟨S2x512x512x256, .f32⟩
  | .hbm, ⟨6, _⟩ => ⟨S2x512x512x256, .f32⟩
  | .hbm, ⟨7, _⟩ => ⟨S2x512x512x256, .f32⟩
  | .hbm, ⟨8, _⟩ => ⟨S2x512x512x256, .f32⟩
  | .hbm, ⟨9, _⟩ => ⟨S_, .f32⟩
  | .hbm, ⟨10, _⟩ => ⟨S2x512x512x256, .f32⟩
  | .hbm, ⟨11, _⟩ => ⟨S2x512x512x256, .f32⟩
  | .hbm, ⟨12, _⟩ => ⟨S_, .f32⟩
  | .hbm, ⟨13, _⟩ => ⟨S2x512x512, .f32⟩
  | .hbm, ⟨14, _⟩ => ⟨S2x512x512, .f32⟩
  | .hbm, ⟨15, _⟩ => ⟨S_, .f32⟩
  | .hbm, ⟨16, _⟩ => ⟨S2x512, .f32⟩
  | .hbm, ⟨17, _⟩ => ⟨S_, .f32⟩
  | .hbm, ⟨18, _⟩ => ⟨S2x512, .f32⟩
  | .hbm, ⟨19, _⟩ => ⟨S2x512, .f32⟩
  | .hbm, ⟨20, _⟩ => ⟨S2x512x1, .f32⟩
  | .hbm, ⟨21, _⟩ => ⟨S2x512x512, .f32⟩
  | .hbm, ⟨22, _⟩ => ⟨S2x512x512, .f32⟩
  | .hbm, ⟨23, _⟩ => ⟨S2x512x512, .f32⟩
  | .hbm, ⟨24, _⟩ => ⟨S_, .f32⟩
  | .hbm, ⟨25, _⟩ => ⟨S2x512, .f32⟩
  | .hbm, ⟨26, _⟩ => ⟨S2x512x1, .f32⟩
  | .hbm, ⟨27, _⟩ => ⟨S2x512x512, .f32⟩
  | .hbm, ⟨28, _⟩ => ⟨S2x512x512, .f32⟩
  | .hbm, ⟨29, _⟩ => ⟨S2x512x256, .f32⟩
  | _, _ => ⟨S2x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  bcast_S2x512x256_S2x1x512x256_0_2_3 : S2x512x256.BroadcastsInDim S2x1x512x256 (![0, 2, 3] : Fin 3 → Fin S2x1x512x256.rank)
  bcast_S2x512x256_S2x512x1x256_0_1_3 : S2x512x256.BroadcastsInDim S2x512x1x256 (![0, 1, 3] : Fin 3 → Fin S2x512x1x256.rank)
  bcast_S2x1x512x256_S2x512x512x256_0_1_2_3 : S2x1x512x256.BroadcastsInDim S2x512x512x256 (![0, 1, 2, 3] : Fin 4 → Fin S2x512x512x256.rank)
  bcast_S2x512x1x256_S2x512x512x256_0_1_2_3 : S2x512x1x256.BroadcastsInDim S2x512x512x256 (![0, 1, 2, 3] : Fin 4 → Fin S2x512x512x256.rank)
  bcast_S_S2x512x512x256 : S_.BroadcastsInDim S2x512x512x256 (![] : Fin 0 → Fin S2x512x512x256.rank)
  reducesTo_S2x512x512x256_S2x512x512_d3 : S2x512x512x256.ReducesTo [3] S2x512x512
  h_S_ : 0 < S_.numel
  reducesTo_S2x512x512_S2x512_d2 : S2x512x512.ReducesTo [2] S2x512
  bcast_S_S2x512 : S_.BroadcastsInDim S2x512 (![] : Fin 0 → Fin S2x512.rank)
  bcast_S2x512_S2x512x1_0_1 : S2x512.BroadcastsInDim S2x512x1 (![0, 1] : Fin 2 → Fin S2x512x1.rank)
  bcast_S2x512x1_S2x512x512_0_1_2 : S2x512x1.BroadcastsInDim S2x512x512 (![0, 1, 2] : Fin 3 → Fin S2x512x512.rank)
  dot_S2x512x512_S2x512x256_S2x512x256_2_1_1_2_0_0_wf : DotDims.WF S2x512x512 S2x512x256 S2x512x256 [2] [1] [1] [2] [0] [0]

variable [Facts₀]

def dot_S2x512x512_S2x512x256_S2x512x256_2_1_1_2_0_0 : DotDims S2x512x512 S2x512x256 S2x512x256 where
  lhsContracting := [2]
  rhsContracting := [1]
  lhsNonContracting := [1]
  rhsNonContracting := [2]
  lhsBatch := [0]
  rhsBatch := [0]
  wf := dot_S2x512x512_S2x512x256_S2x512x256_2_1_1_2_0_0_wf

class Facts : Prop extends Facts₀ where

variable [Facts]
-- ==== Proof.Spec.lean ====
/-
  The value both programs compute, as one function of three arrays q, k, v of extended reals, each [2, 512, 256].

  For a batch n and a query row c, the logit against key row d is minus half the L1 distance of the two rows,
      logit = (0 − Σ_s |k(n,d,s) − q(n,c,s)|) · ½ ;
  the weights are the softmax of the 512 logits of the row, taken with the row maximum subtracted,
      w(d) = exp (logit d − M) / Σ_d' exp (logit d' − M),   M = the maximum of the row's logits from −∞ ;
  and the result at (n, c, s) is Σ_d w(d) · v(n,d,s).

  The one algebraic law of the certificate is here too: halving every absolute difference before summing and negating
  the sum is the same as summing, subtracting from zero and halving. The terms are absolute values, so they are
  non-negative extended reals, and a product by a non-negative factor distributes over a sum of non-negative terms even
  where a term is +∞: the law holds for all extended reals, finite or not.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The maximum of a row of logits, folded from −∞. -/
def rowMax {D : ℕ} (L : Fin D → EReal) : EReal :=
  (Finset.univ : Finset (Fin D)).fold max (Ideal.ofBits .f32 0xFF800000#32) L

/-- The softmax of the logits `L`, with the row maximum subtracted, applied to the values `w`. -/
def softSum {D : ℕ} (L w : Fin D → EReal) : EReal :=
  ∑ d : Fin D, Ideal.div (Ideal.exp (L d - rowMax L)) (∑ d' : Fin D, Ideal.exp (L d' - rowMax L)) * w d

/-- Minus half the L1 distance of two rows: `(0 − Σ_s |b s − a s|) · ½`, the absolute value as `max x (−x)`. -/
def logit {S : ℕ} (a b : Fin S → EReal) : EReal :=
  (Ideal.ofBits .f32 0x00000000#32 - ∑ s : Fin S, max (b s - a s) (-(b s - a s))) * Ideal.ofBits .f32 0x3F000000#32

/-- The attention value at (n, c, s). -/
def attn (q k v : (⟨3, ![2, 512, 256]⟩ : Shape).Idx → EReal) (n : Fin 2) (c : Fin 512) (s : Fin 256) : EReal :=
  softSum (fun d : Fin 512 => logit (fun s' : Fin 256 => q (ix3 n c s')) (fun s' : Fin 256 => k (ix3 n d s')))
    (fun d : Fin 512 => v (ix3 n d s))

/-- The attention value as a whole [2, 512, 256] array. -/
def attnArr (q k v : (⟨3, ![2, 512, 256]⟩ : Shape).Idx → EReal) : (⟨3, ![2, 512, 256]⟩ : Shape).Idx → EReal :=
  fun i => attn q k v (i 0) (i 1) (i 2)

/-- The pattern of `2.0` denotes the real 2. -/
theorem ofBits_two : Ideal.ofBits .f32 0x40000000#32 = ((2 : ℝ) : EReal) := by
  simp [Ideal.ofBits, Ideal.ieee, -EReal.coe_mul]; norm_num

/-- The pattern of `0.5` denotes the real 1/2. -/
theorem ofBits_half : Ideal.ofBits .f32 0x3F000000#32 = ((1 / 2 : ℝ) : EReal) := by
  simp [Ideal.ofBits, Ideal.ieee, -EReal.coe_mul]; norm_num

/-- An absolute value, spelt `max x (−x)`, is non-negative on the extended reals. -/
theorem abs_nonneg' (x : EReal) : 0 ≤ max x (-x) := by
  rcases le_total 0 x with h | h
  · exact le_max_of_le_left h
  · exact le_max_of_le_right (by simpa using EReal.neg_le_neg_iff.mpr h)

/-- A sum of non-negative extended reals times a non-negative factor is the sum of the products. -/
theorem sum_mul_of_nonneg {ι : Type} (s : Finset ι) (f : ι → EReal) (hf : ∀ i, 0 ≤ f i) (c : EReal) :
    (∑ i ∈ s, f i) * c = ∑ i ∈ s, f i * c := by
  classical
  induction s using Finset.induction_on with
  | empty => simp
  | insert a s ha ih =>
    rw [Finset.sum_insert ha, Finset.sum_insert ha, EReal.right_distrib_of_nonneg (hf a) (Finset.sum_nonneg fun i _ => hf i), ih]

/-- Halving each absolute difference, summing from zero and negating is the logit. -/
theorem neg_sum_halves {S : ℕ} (a b : Fin S → EReal) :
    -(Ideal.ofBits .f32 0x00000000#32
        + ∑ s : Fin S, Ideal.div (max (b s - a s) (-(b s - a s))) (Ideal.ofBits .f32 0x40000000#32))
      = logit a b := by
  unfold logit
  rw [Ideal.ofBits_zero_f32, zero_add, zero_sub, ofBits_two, ofBits_half, EReal.neg_mul,
    sum_mul_of_nonneg _ _ (fun s => abs_nonneg' _)]
  refine congrArg Neg.neg (Finset.sum_congr rfl fun s _ => ?_)
  exact Ideal.div_coe (by norm_num) _

end Cert.Attn

end
-- ==== Proof.LibLayout3.lean ====
/-
  Rank-3 layout operations read at an index given by coordinates: a matrix cast to a stack of columns
  `[a, b] → [a, b, 1]` or of rows `[a, b] → [a, 1, b]`, and either broadcast along its unit axis to `[a, b, c]`; and a
  one-element vector cast to `[1, 1, 1]` and read at its one position. Each is the parent lemma of the value library
  with the per-axis arithmetic done.
-/
import Idealize.ShloMosaic.Lib.Pipeline.Value
import Idealize.ShloMosaic.Lib.ValueIdx
import Idealize.ShloMosaic.Lib.ValueLayout

namespace Cert.Layout3

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, k)`, the operand at `(i, k)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (k : Fin b) :
    shapeCast ⟨3, ![a, 1, b]⟩ x h (ix3 i u k) = x (ix2 i k) :=
  shapeCast_apply x h _ _ (by
    have hu : u.val = 0 := by omega
    rw [Shape.rowMajor_val_three, Shape.rowMajor_val_two]
    show i.val * b + k.val = (i.val * 1 + u.val) * b + k.val
    rw [hu, Nat.mul_one, Nat.add_zero])

/-- A stack of columns `[a, b, 1]` broadcast to `[a, b, c]` does not depend on the last coordinate. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A stack of rows `[a, 1, c]` broadcast to `[a, b, c]` does not depend on the middle coordinate. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A one-element vector cast to `[1, 1, 1]` and read at its one position is its element. -/
theorem extractAt_shapeCast_one (x : (⟨1, ![1]⟩ : Shape).Idx → α)
    (h : (⟨1, ![1]⟩ : Shape).ShapeCasts ⟨3, ![1, 1, 1]⟩)
    (hp : ∀ a, (![0, 0, 0] : Fin 3 → ℕ) a < (⟨3, ![1, 1, 1]⟩ : Shape).size a) :
    extractAt ![0, 0, 0] (shapeCast ⟨3, ![1, 1, 1]⟩ x h) hp = x (ix1 (0 : Fin 1)) := by
  unfold extractAt
  exact shapeCast_apply x h _ _ (by
    rw [Shape.rowMajor_val_three, Shape.rowMajor_val_one]
    rfl)

end Cert.Layout3
-- ==== Proof.Chunk.lean ====
/-
  One chunk of 32 key rows against the 128 query rows of a block: the logits the body stores for that chunk.
-/
import proofs.«114668_j51316269253360_2_alg».proof.Proof.Gen.KernelIdeal.Skeleton
import proofs.«114668_j51316269253360_2_alg».proof.Proof.Spec
import proofs.«114668_j51316269253360_2_alg».proof.Proof.LibLayout3
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Chunk

open Cert.KernelIdeal Cert.KernelIdeal.Gen Idealize.ShloMosaic Idealize.ShloMosaic.ValueIdx

variable {F : FTy → Type} [FloatOps F]

/-- The logits of one key chunk: the key rows [1, 32, 256] and the query rows [128, 256] are both spread to
    [128, 32, 256], subtracted, the absolute value taken, summed over the last axis, subtracted from zero and halved. -/
def chunk (v1 : FVec F S128x256 .f32) (kc : Vec F S1x32x256 .f32) : FVec F S128x32 .f32 :=
  shapeCast S128x32
    (mulf
      (subf (broadcast S128x32 (Scalar.ofBits .f32 0x00000000#32))
        (multiReduction .add [2] S128x32
          (absf (subf
            (broadcastTo S128x32x256
              (shapeCast S1x32x256 (shapeCast S32x256 kc shapeCasts_S1x32x256_S32x256) shapeCasts_S32x256_S1x32x256)
              broadcasts_S1x32x256_S128x32x256)
            (broadcastTo S128x32x256 (shapeCast S128x1x256 v1 shapeCasts_S128x256_S128x1x256)
              broadcasts_S128x1x256_S128x32x256)))
          0x00000000#32 reduces_S128x32x256_S128x32 (.inl rfl) rfl))
      (broadcast S128x32 (Scalar.ofBits .f32 0x3F000000#32)))
    shapeCasts_S128x32_S128x32

/-! The sixteen stored payloads are this one term (the query rows reach the first two through the block's cast). -/
theorem pay_at_0 (x0 : Vec F S1x128x256 .f32) (kc : Vec F S1x32x256 .f32) : k0_pay3 x0 kc = chunk (k0_pay2 x0) kc := rfl
theorem pay_at_32 (x0 : Vec F S1x128x256 .f32) (kc : Vec F S1x32x256 .f32) : k0_pay4 x0 kc = chunk (k0_pay2 x0) kc := rfl
theorem pay_at_64 (v1 : FVec F S128x256 .f32) (kc : Vec F S1x32x256 .f32) : k0_pay5 v1 kc = chunk v1 kc := rfl
theorem pay_at_96 (v1 : FVec F S128x256 .f32) (kc : Vec F S1x32x256 .f32) : k0_pay6 v1 kc = chunk v1 kc := rfl
theorem pay_at_128 (v1 : FVec F S128x256 .f32) (kc : Vec F S1x32x256 .f32) : k0_pay8 (k0_pay7 v1 kc) = chunk v1 kc := rfl
theorem pay_at_160 (v1 : FVec F S128x256 .f32) (kc : Vec F S1x32x256 .f32) : k0_pay9 v1 kc = chunk v1 kc := rfl
theorem pay_at_192 (v1 : FVec F S128x256 .f32) (kc : Vec F S1x32x256 .f32) : k0_pay11 (k0_pay10 v1 kc) = chunk v1 kc := rfl
theorem pay_at_224 (v1 : FVec F S128x256 .f32) (kc : Vec F S1x32x256 .f32) : k0_pay12 v1 kc = chunk v1 kc := rfl
theorem pay_at_256 (v1 : FVec F S128x256 .f32) (kc : Vec F S1x32x256 .f32) : k0_pay13 v1 kc = chunk v1 kc := rfl
theorem pay_at_288 (v1 : FVec F S128x256 .f32) (kc : Vec F S1x32x256 .f32) : k0_pay16 (k0_pay14 v1) (k0_pay15 kc) = chunk v1 kc := rfl
theorem pay_at_320 (v1 : FVec F S128x256 .f32) (kc : Vec F S1x32x256 .f32) : k0_pay17 v1 kc = chunk v1 kc := rfl
theorem pay_at_352 (v1 : FVec F S128x256 .f32) (kc : Vec F S1x32x256 .f32) : k0_pay20 (k0_pay18 v1 kc) k0_pay19 = chunk v1 kc := rfl
theorem pay_at_384 (v1 : FVec F S128x256 .f32) (kc : Vec F S1x32x256 .f32) : k0_pay21 v1 kc = chunk v1 kc := rfl
theorem pay_at_416 (v1 : FVec F S128x256 .f32) (kc : Vec F S1x32x256 .f32) : k0_pay22 v1 kc = chunk v1 kc := rfl
theorem pay_at_448 (v1 : FVec F S128x256 .f32) (kc : Vec F S1x32x256 .f32) : k0_pay23 v1 kc = chunk v1 kc := rfl
theorem pay_at_480 (v1 : FVec F S128x256 .f32) (kc : Vec F S1x32x256 .f32) : k0_pay24 v1 kc = chunk v1 kc := rfl

/-- Key rows [1, 32, 256] spread along the leading unit axis to [128, 32, 256]: entry (r, j, s) is entry (0, j, s). -/
theorem key_broadcast_apply {α : Type} (v : S1x32x256.Idx → α) (r : Fin 128) (j : Fin 32) (s : Fin 256) :
    broadcastTo S128x32x256 v broadcasts_S1x32x256_S128x32x256 (ix3 r j s) = v (ix3 (0 : Fin 1) j s) := by
  refine broadcastTo_apply v _ (ix3 r j s) (ix3 (0 : Fin 1) j s) fun ax => ?_
  match ax with
  | ⟨0, _⟩ => rfl
  | ⟨1, _⟩ => rfl
  | ⟨2, _⟩ => rfl

/-- Key rows cast [1, 32, 256] → [32, 256] → [1, 32, 256] are unchanged. -/
theorem key_cast_cast {α : Type} (v : S1x32x256.Idx → α) :
    shapeCast S1x32x256 (shapeCast S32x256 v shapeCasts_S1x32x256_S32x256) shapeCasts_S32x256_S1x32x256 = v :=
  shapeCast_shapeCast v _ _

/-- Query rows [128, 256] cast to [128, 1, 256] and spread along the unit axis to [128, 32, 256]: entry (r, j, s) is
    entry (r, s). -/
theorem query_broadcast_apply {α : Type} (v : S128x256.Idx → α) (r : Fin 128) (j : Fin 32) (s : Fin 256) :
    broadcastTo S128x32x256 (shapeCast S128x1x256 v shapeCasts_S128x256_S128x1x256) broadcasts_S128x1x256_S128x32x256
        (ix3 r j s) = v (ix2 r s) :=
  (Cert.Layout3.broadcastTo_a1c_abc_apply _ _ r j s).trans (Cert.Layout3.shapeCast_ab_a1b_apply v _ r 0 s)

/-- The [128, 32, 256] array summed over its last axis: position (r, j) with lane s inserted is (r, j, s). -/
theorem lift_lane (r : Fin 128) (j : Fin 32) (s : Fin 256) :
    reduces_S128x32x256_S128x32.lift (ix2 r j) s = ix3 r j s :=
  funext fun a => Fin.ext (by match a with | ⟨0, _⟩ => rfl | ⟨1, _⟩ => rfl | ⟨2, _⟩ => rfl)

/-- Entry (r, j) of a chunk's logits is the logit of query row r against the chunk's key row j. -/
theorem chunk_apply (v1 : FVec Ideal S128x256 .f32) (kc : Vec Ideal S1x32x256 .f32) (r : Fin 128) (j : Fin 32) :
    chunk (F := Ideal) v1 kc (ix2 r j)
      = Cert.Attn.logit (fun s : Fin 256 => v1 (ix2 r s)) (fun s : Fin 256 => kc (ix3 (0 : Fin 1) j s)) := by
  unfold chunk Cert.Attn.logit
  rw [shapeCast_self, key_cast_cast]
  show (Ideal.ofBits .f32 0x00000000#32
      - multiReduction FKind.add [2] S128x32 _ _ reduces_S128x32x256_S128x32 _ _ (ix2 r j)) * Ideal.ofBits .f32 0x3F000000#32 = _
  refine congrArg (fun t => (Ideal.ofBits .f32 0x00000000#32 - t) * Ideal.ofBits .f32 0x3F000000#32) ?_
  refine (Ideal.multiReduction_add_single _ _ _ _ _ _).trans ?_
  refine Finset.sum_congr rfl fun (s : Fin 256) _ => ?_
  refine (congrArg (absf (subf _ _)) (lift_lane r j s)).trans ?_
  show max (broadcastTo S128x32x256 kc _ (ix3 r j s) - broadcastTo S128x32x256 _ _ (ix3 r j s)) (-(_ - _)) = _
  rw [key_broadcast_apply, query_broadcast_apply]

end Cert.KernelIdeal.Chunk

end
-- ==== Proof.Logits.lean ====
/-
  The block of logits [128, 512] the body assembles from sixteen chunks of 32 columns, read back at an entry.
-/
import proofs.«114668_j51316269253360_2_alg».proof.Proof.Chunk
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Logits

open Cert.KernelIdeal Cert.KernelIdeal.Gen Idealize.ShloMosaic Idealize.ShloMosaic.ValueIdx
open Idealize.ShloMosaic.Tactic

variable {F : FTy → Type} [FloatOps F]

/-- The sixteen column chunks, last stored first: chunk number kd holds, in columns 32·kd … 32·kd + 31, the logits of the
    query block's rows against key rows 32·kd … 32·kd + 31 of the key block. -/
def pieces (x0 : Vec F S1x128x256 .f32) (x1 : Vec F S1x512x256 .f32) : List (View.Piece (Elt F) S128x512 .f32) :=
  [
    ⟨Rect.unit ![0, 480] ![128, 32] inb_S128x512_S128x32_0_480,
      Chunk.chunk (k0_pay2 x0) (View.ld x1 (Rect.unit ![0, 480, 0] ![1, 32, 256] inb_S1x512x256_S1x32x256_0_480_0))⟩,
    ⟨Rect.unit ![0, 448] ![128, 32] inb_S128x512_S128x32_0_448,
      Chunk.chunk (k0_pay2 x0) (View.ld x1 (Rect.unit ![0, 448, 0] ![1, 32, 256] inb_S1x512x256_S1x32x256_0_448_0))⟩,
    ⟨Rect.unit ![0, 416] ![128, 32] inb_S128x512_S128x32_0_416,
      Chunk.chunk (k0_pay2 x0) (View.ld x1 (Rect.unit ![0, 416, 0] ![1, 32, 256] inb_S1x512x256_S1x32x256_0_416_0))⟩,
    ⟨Rect.unit ![0, 384] ![128, 32] inb_S128x512_S128x32_0_384,
      Chunk.chunk (k0_pay2 x0) (View.ld x1 (Rect.unit ![0, 384, 0] ![1, 32, 256] inb_S1x512x256_S1x32x256_0_384_0))⟩,
    ⟨Rect.unit ![0, 352] ![128, 32] inb_S128x512_S128x32_0_352,
      Chunk.chunk (k0_pay2 x0) (View.ld x1 (Rect.unit ![0, 352, 0] ![1, 32, 256] inb_S1x512x256_S1x32x256_0_352_0))⟩,
    ⟨Rect.unit ![0, 320] ![128, 32] inb_S128x512_S128x32_0_320,
      Chunk.chunk (k0_pay2 x0) (View.ld x1 (Rect.unit ![0, 320, 0] ![1, 32, 256] inb_S1x512x256_S1x32x256_0_320_0))⟩,
    ⟨Rect.unit ![0, 288] ![128, 32] inb_S128x512_S128x32_0_288,
      Chunk.chunk (k0_pay2 x0) (View.ld x1 (Rect.unit ![0, 288, 0] ![1, 32, 256] inb_S1x512x256_S1x32x256_0_288_0))⟩,
    ⟨Rect.unit ![0, 256] ![128, 32] inb_S128x512_S128x32_0_256,
      Chunk.chunk (k0_pay2 x0) (View.ld x1 (Rect.unit ![0, 256, 0] ![1, 32, 256] inb_S1x512x256_S1x32x256_0_256_0))⟩,
    ⟨Rect.unit ![0, 224] ![128, 32] inb_S128x512_S128x32_0_224,
      Chunk.chunk (k0_pay2 x0) (View.ld x1 (Rect.unit ![0, 224, 0] ![1, 32, 256] inb_S1x512x256_S1x32x256_0_224_0))⟩,
    ⟨Rect.unit ![0, 192] ![128, 32] inb_S128x512_S128x32_0_192,
      Chunk.chunk (k0_pay2 x0) (View.ld x1 (Rect.unit ![0, 192, 0] ![1, 32, 256] inb_S1x512x256_S1x32x256_0_192_0))⟩,
    ⟨Rect.unit ![0, 160] ![128, 32] inb_S128x512_S128x32_0_160,
      Chunk.chunk (k0_pay2 x0) (View.ld x1 (Rect.unit ![0, 160, 0] ![1, 32, 256] inb_S1x512x256_S1x32x256_0_160_0))⟩,
    ⟨Rect.unit ![0, 128] ![128, 32] inb_S128x512_S128x32_0_128,
      Chunk.chunk (k0_pay2 x0) (View.ld x1 (Rect.unit ![0, 128, 0] ![1, 32, 256] inb_S1x512x256_S1x32x256_0_128_0))⟩,
    ⟨Rect.unit ![0, 96] ![128, 32] inb_S128x512_S128x32_0_96,
      Chunk.chunk (k0_pay2 x0) (View.ld x1 (Rect.unit ![0, 96, 0] ![1, 32, 256] inb_S1x512x256_S1x32x256_0_96_0))⟩,
    ⟨Rect.unit ![0, 64] ![128, 32] inb_S128x512_S128x32_0_64,
      Chunk.chunk (k0_pay2 x0) (View.ld x1 (Rect.unit ![0, 64, 0] ![1, 32, 256] inb_S1x512x256_S1x32x256_0_64_0))⟩,
    ⟨Rect.unit ![0, 32] ![128, 32] inb_S128x512_S128x32_0_32,
      Chunk.chunk (k0_pay2 x0) (View.ld x1 (Rect.unit ![0, 32, 0] ![1, 32, 256] inb_S1x512x256_S1x32x256_0_32_0))⟩,
    ⟨Rect.unit ![0, 0] ![128, 32] inb_S128x512_S128x32_0_0,
      Chunk.chunk (k0_pay2 x0) (View.ld x1 (Rect.unit ![0, 0, 0] ![1, 32, 256] inb_S1x512x256_S1x32x256_0_0_0))⟩]

/-- The sixteen chunks cover the block. -/
theorem pieces_cover (x0 : Vec F S1x128x256 .f32) (x1 : Vec F S1x512x256 .f32) (y : S128x512.Idx) :
    ∃ pc ∈ pieces x0 x1, y ∈ pc.1.set :=
  View.cover_of_tiledL (pieces x0 x1) ![128, 32] (by sl_kernel_rfl) y

/-- The block as a function of its index: entry (r, d) is the logit of query row r against key row d. -/
def entry (x0 : Vec Ideal S1x128x256 .f32) (x1 : Vec Ideal S1x512x256 .f32) : S128x512.Idx → EReal :=
  fun y => Cert.Attn.logit (fun s : Fin 256 => x0 (ix3 (0 : Fin 1) (y 0) s)) (fun s : Fin 256 => x1 (ix3 (0 : Fin 1) (y 1) s))

/-- The query rows [128, 256] are the [1, 128, 256] block with its unit axis dropped: entry (r, s) is entry (0, r, s). -/
theorem pay2_apply (x0 : Vec Ideal S1x128x256 .f32) (r : Fin 128) (s : Fin 256) :
    k0_pay2 (F := Ideal) x0 (ix2 r s) = x0 (ix3 (0 : Fin 1) r s) := by
  unfold k0_pay2
  refine (shapeCast_dropUnit_apply ![128, 256] x0 _ (ix2 r s)).trans ?_
  exact congrArg x0 (funext fun a => Fin.ext (by match a with | ⟨0, _⟩ => rfl | ⟨1, _⟩ => rfl | ⟨2, _⟩ => rfl))

/-- One chunk, at any column offset o: what is stored at local index (r, j) is the block's entry at (r, o + j).
    The chunk's entry (r, j) is the logit of query row r against the chunk's key row j; the chunk's key rows are rows
    o … o + 31 of the key block, and the store places local column j at column o + j, so both sides name key row o + j. -/
theorem piece_apply (x0 : Vec Ideal S1x128x256 .f32) (x1 : Vec Ideal S1x512x256 .f32) (o : ℕ)
    (inb : ∀ a, (![0, o] : Fin 2 → ℕ) a + (![128, 32] : Fin 2 → ℕ) a ≤ S128x512.size a)
    (inb' : ∀ a, (![0, o, 0] : Fin 3 → ℕ) a + (![1, 32, 256] : Fin 3 → ℕ) a ≤ S1x512x256.size a)
    (x : S128x32.Idx) :
    Chunk.chunk (F := Ideal) (k0_pay2 x0) (View.ld x1 (Rect.unit (s := S1x512x256) ![0, o, 0] ![1, 32, 256] inb')) x
      = entry x0 x1 ((Rect.unit (s := S128x512) ![0, o] ![128, 32] inb).emb x) := by
  obtain ⟨r, j, rfl⟩ : ∃ (r : Fin 128) (j : Fin 32), x = ix2 r j := ⟨x 0, x 1, eq_ix2 x⟩
  refine (Chunk.chunk_apply _ _ r j).trans ?_
  unfold entry
  refine congrArg₂ Cert.Attn.logit (funext fun s => ?_) (funext fun s => ?_)
  · -- the query row: local row r sits at row 0 + 1 · r of the block
    refine (pay2_apply x0 r s).trans (congrArg x0 (funext fun a => Fin.ext ?_))
    match a with
    | ⟨0, _⟩ => rfl
    | ⟨1, _⟩ => show r.val = 0 + 1 * r.val; omega
    | ⟨2, _⟩ => rfl
  · -- the key row: the load reads row o + 1 · j, the store's column is o + 1 · j
    show x1 _ = x1 _
    refine congrArg x1 (funext fun a => Fin.ext ?_)
    match a with
    | ⟨0, _⟩ => rfl
    | ⟨1, _⟩ => rfl
    | ⟨2, _⟩ => show 0 + 1 * s.val = s.val; omega

/-- Entry (r, d) of the assembled block is the logit of query row r against key row d. -/
theorem canon_pieces_apply (x0 : Vec Ideal S1x128x256 .f32) (x1 : Vec Ideal S1x512x256 .f32) (r : Fin 128) (d : Fin 512) :
    View.canon (pieces (F := Ideal) x0 x1) (ix2 r d)
      = Cert.Attn.logit (fun s : Fin 256 => x0 (ix3 (0 : Fin 1) r s)) (fun s : Fin 256 => x1 (ix3 (0 : Fin 1) d s)) := by
  -- every chunk agrees with `entry` on its columns and the chunks cover the block, so the block read back is `entry`
  refine (View.canon_apply_of_pieces (entry x0 x1) (pieces x0 x1) ?_ (ix2 r d) (pieces_cover x0 x1 (ix2 r d))).trans rfl
  intro p hp x
  simp only [pieces, List.mem_cons, List.not_mem_nil, or_false] at hp
  rcases hp with rfl | rfl | rfl | rfl | rfl | rfl | rfl | rfl | rfl | rfl | rfl | rfl | rfl | rfl | rfl | rfl
  · exact piece_apply x0 x1 480 inb_S128x512_S128x32_0_480 inb_S1x512x256_S1x32x256_0_480_0 x
  · exact piece_apply x0 x1 448 inb_S128x512_S128x32_0_448 inb_S1x512x256_S1x32x256_0_448_0 x
  · exact piece_apply x0 x1 416 inb_S128x512_S128x32_0_416 inb_S1x512x256_S1x32x256_0_416_0 x
  · exact piece_apply x0 x1 384 inb_S128x512_S128x32_0_384 inb_S1x512x256_S1x32x256_0_384_0 x
  · exact piece_apply x0 x1 352 inb_S128x512_S128x32_0_352 inb_S1x512x256_S1x32x256_0_352_0 x
  · exact piece_apply x0 x1 320 inb_S128x512_S128x32_0_320 inb_S1x512x256_S1x32x256_0_320_0 x
  · exact piece_apply x0 x1 288 inb_S128x512_S128x32_0_288 inb_S1x512x256_S1x32x256_0_288_0 x
  · exact piece_apply x0 x1 256 inb_S128x512_S128x32_0_256 inb_S1x512x256_S1x32x256_0_256_0 x
  · exact piece_apply x0 x1 224 inb_S128x512_S128x32_0_224 inb_S1x512x256_S1x32x256_0_224_0 x
  · exact piece_apply x0 x1 192 inb_S128x512_S128x32_0_192 inb_S1x512x256_S1x32x256_0_192_0 x
  · exact piece_apply x0 x1 160 inb_S128x512_S128x32_0_160 inb_S1x512x256_S1x32x256_0_160_0 x
  · exact piece_apply x0 x1 128 inb_S128x512_S128x32_0_128 inb_S1x512x256_S1x32x256_0_128_0 x
  · exact piece_apply x0 x1 96 inb_S128x512_S128x32_0_96 inb_S1x512x256_S1x32x256_0_96_0 x
  · exact piece_apply x0 x1 64 inb_S128x512_S128x32_0_64 inb_S1x512x256_S1x32x256_0_64_0 x
  · exact piece_apply x0 x1 32 inb_S128x512_S128x32_0_32 inb_S1x512x256_S1x32x256_0_32_0 x
  · exact piece_apply x0 x1 0 inb_S128x512_S128x32_0_0 inb_S1x512x256_S1x32x256_0_0_0 x

end Cert.KernelIdeal.Logits

end
-- ==== Proof.LibKeepdims.lean ====
/-
  Two layout operations read at an index given by coordinates, for a reduction that keeps its reduced axis as a
  unit axis: a vector of `a` entries cast to a column `[a, 1]`, and a column `[a, 1]` broadcast along its unit
  axis to `[a, b]`. Both are instances of the library's general lemmas (a shape cast reads the operand at the index
  with the same row-major position; a broadcast reads the operand at the trailing coordinates, `0` on unit axes)
  with the coordinates' arithmetic discharged.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to a column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibMinReduce.lean ====
/-
  A float vector.multi_reduction <minimumf> over ONE axis, read at the ideal values: the fold of min, from the
  accumulator's value, over that axis's coordinates (the reduced index with the coordinate inserted). The mirror of
  the library's statement for <maximumf>; min on the extended reals commutes and associates, so the order in which
  the reduction visits the axis does not matter. Also the index the coordinate is inserted into, written by
  coordinates, for a matrix reduced along its columns (one value per row) and along its rows (one per column).
-/
import Idealize.ShloMosaic.PureOps.Ideal.Laws
import Idealize.ShloMosaic.PureOps.Reduce
import Idealize.ShloMosaic.Lib.ValueIdx

namespace Cert.MinReduce

open Idealize.ShloMosaic Idealize.ShloMosaic.ValueIdx

/-- A one-axis <minimumf> reduction at the ideal values is the fold of min over the axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- A matrix reduced along its columns: row p with column coordinate c inserted is the entry (p, c). -/
theorem lift_cols {a b : ℕ} (h : (⟨2, ![a, b]⟩ : Shape).Reduces [1] ⟨1, ![a]⟩) (p : Fin a) (c : Fin b) :
    h.lift (ix1 p) c = ix2 p c :=
  funext fun ax => Fin.ext (by match ax with | ⟨0, _⟩ => rfl | ⟨1, _⟩ => rfl)

/-- A matrix reduced along its rows: column c with row coordinate p inserted is the entry (p, c). -/
theorem lift_rows {a b : ℕ} (h : (⟨2, ![a, b]⟩ : Shape).Reduces [0] ⟨1, ![b]⟩) (c : Fin b) (p : Fin a) :
    h.lift (ix1 c) p = ix2 p c :=
  funext fun ax => Fin.ext (by match ax with | ⟨0, _⟩ => rfl | ⟨1, _⟩ => rfl)

end Cert.MinReduce
-- ==== Proof.LibRowReduce.lean ====
/-
  A matrix reduced along its columns (one value per row), and a per-row value spread back over the row.

  For an [a, b] matrix `src` of extended reals:
  * `rowMax_apply`: a one-axis maximum reduction over axis 1, read at row p, is the fold of max from the accumulator's
    value over the entries src(p, c) of that row;
  * `rowSum_apply`: a one-axis add reduction over axis 1 from the neutral accumulator, read at row p, is ∑ c, src(p, c);
  * `keepdims_apply`: a vector of `a` entries cast to a column [a, 1] and broadcast to [a, b] reads, at (p, c), the
    vector's entry p — the reduced axis kept as a unit axis and spread back over the row.
-/
import Idealize.ShloMosaic.PureOps.Ideal.Laws
import Idealize.ShloMosaic.PureOps.Reduce
import Idealize.ShloMosaic.Lib.ValueIdx
import Idealize.ShloMosaic.Lib.Pipeline.Value
import proofs.«114668_j51316269253360_2_alg».proof.Proof.LibKeepdims
import proofs.«114668_j51316269253360_2_alg».proof.Proof.LibMinReduce

noncomputable section

namespace Cert.RowReduce

open Idealize.ShloMosaic Idealize.ShloMosaic.ValueIdx

/-- The maximum of row p: the fold of max, from the accumulator's value, over the row's entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun c => src (ix2 p c)) := by
  refine (Ideal.multiReduction_maximumf_single src acc h hφ hacc (ix1 p)).trans ?_
  refine congrArg (fun f => (Finset.univ : Finset (Fin b)).fold max (Ideal.ofBits φ acc) f) ?_
  funext c
  exact congrArg src (Cert.MinReduce.lift_cols h p c)

/-- The sum of row p: the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ c : Fin b, src (ix2 p c) := by
  refine (Ideal.multiReduction_add_single src acc h hφ hacc (ix1 p)).trans ?_
  exact Finset.sum_congr rfl fun c _ => congrArg src (Cert.MinReduce.lift_cols h p c)

/-- A vector cast to a column and broadcast along the unit axis reads, at (p, c), the vector's entry p. -/
theorem keepdims_apply {α : Type} {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ v hc) hb (ix2 p c) = v (ix1 p) :=
  (Cert.Keepdims.broadcastTo_a1_ab_apply (shapeCast ⟨2, ![a, 1]⟩ v hc) hb p c).trans
    (Cert.Keepdims.shapeCast_a_a1_apply v hc p 0)

end Cert.RowReduce

end
-- ==== Proof.LibDenseLayer.lean ====
/-
  A dense graph layer over the extended reals, and a rank-2 matrix product read at an entry.

  The layer: for an adjacency matrix `A` ([N, N]), features `X` ([N, K]), weights `W` ([K, M]), a bias `b` (M
  entries) and a scale `s`, entry (r, c) of the layer's output is
      (∑ j, ((∑ k, A(r,k) · X(k,j)) + s · X(r,j)) · W(j,c)) + b(c):
  the neighbours' features summed and added to the scaled own features, then the linear map and the bias. `rowLayer`
  is the same entry written from row r of `A` and row r of `X` alone, which is what one row band of a blocked
  evaluation has at hand; `layerAt` is `rowLayer` at the two rows (`layerAt_eq_rowLayer`).

  `matmul_rows_cols`: a matrix unit's product of an [A, K] by a [K, B] matrix into a zero accumulator, read at (p, q),
  is ∑ k, L(p,k) · R(k,q) — stated for any dimension record whose four index facts (the left index takes the output
  row and the contraction position, the right index the contraction position and the output column) are supplied.
-/
import Idealize.ShloMosaic.Lib.ValueIdx
import Idealize.ShloMosaic.Lib.Pipeline.Value
import Idealize.ShloMosaic.PureOps.Ideal.Laws

noncomputable section

namespace Cert.DenseLayer

open Idealize.ShloMosaic Idealize.ShloMosaic.ValueIdx

/-- Entry `c` of one output row of the layer, from that row `a` of the adjacency matrix and that row `xr` of the
    features: `(∑ j, ((∑ k, a k · X(k,j)) + s · xr j) · W(j,c)) + b c`. -/
def rowLayer {N K M : ℕ} (a : Fin N → EReal) (X : (⟨2, ![N, K]⟩ : Shape).Idx → EReal)
    (W : (⟨2, ![K, M]⟩ : Shape).Idx → EReal) (b : Fin M → EReal) (s : EReal) (xr : Fin K → EReal) (c : Fin M) : EReal :=
  (∑ j : Fin K, ((∑ k : Fin N, a k * X (ix2 k j)) + s * xr j) * W (ix2 j c)) + b c

/-- Entry (r, c) of the layer's output. -/
def layerAt {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) : EReal :=
  (∑ j : Fin K, ((∑ k : Fin N, A (ix2 r k) * X (ix2 k j)) + s * X (ix2 r j)) * W (ix2 j c)) + b c

/-- The entry from the two rows it depends on. -/
theorem layerAt_eq_rowLayer {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    layerAt A X W b s r c = rowLayer (fun k => A (ix2 r k)) X W b s (fun j => X (ix2 r j)) c := rfl

/-- The same entry with the own-features term written first (`s · X(r,j) + ∑ k, A(r,k) · X(k,j)`): addition of
    extended reals is commutative. -/
theorem layerAt_comm {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    (∑ j : Fin K, (s * X (ix2 r j) + ∑ k : Fin N, A (ix2 r k) * X (ix2 k j)) * W (ix2 j c)) + b c = layerAt A X W b s r c := by
  unfold layerAt
  refine congrArg (· + b c) (Finset.sum_congr rfl fun j _ => ?_)
  rw [add_comm]

/-- A matrix product into a zero accumulator, read at (p, q): the sum over the contracted axis of the left operand's
    row p times the right operand's column q. -/
theorem matmul_rows_cols {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    FloatOps.matmul d prec L R (constant ⟨2, ![A, B]⟩ .f32 0x00000000#32) (ix2 p q)
      = ∑ k : Fin K, L (ix2 p k) * R (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.DenseLayer

end
-- ==== Proof.Tail.lean ====
/-
  From a block of logits to the block of results: the softmax along each row and the product with the value block.
-/
import proofs.«114668_j51316269253360_2_alg».proof.Proof.Gen.KernelIdeal.Skeleton
import proofs.«114668_j51316269253360_2_alg».proof.Proof.Spec
import proofs.«114668_j51316269253360_2_alg».proof.Proof.LibRowReduce
import proofs.«114668_j51316269253360_2_alg».proof.Proof.LibDenseLayer
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tail

open Cert.KernelIdeal Cert.KernelIdeal.Gen Idealize.ShloMosaic Idealize.ShloMosaic.ValueIdx

/-- The matrix product's dimension record: the left index takes the output row on its axis 0. -/
theorem dot_lhs_0 (i : S128x256.Idx) (q : dot_S128x512_S512x256_S128x256_1_0_0_1_n_n.contr.Idx) :
    (dot_S128x512_S512x256_S128x256_1_0_0_1_n_n.lhsIdx i q 0).val = (i 0).val := by
  unfold DotDims.lhsIdx
  rw [dif_neg (show ¬(0 : Fin S128x512.rank) ∈ dot_S128x512_S512x256_S128x256_1_0_0_1_n_n.lhsBatch by decide),
    dif_pos (show (0 : Fin S128x512.rank) ∈ dot_S128x512_S512x256_S128x256_1_0_0_1_n_n.lhsNonContracting by decide)]
  rfl

/-- The left index takes the contraction position on its axis 1. -/
theorem dot_lhs_1 (i : S128x256.Idx) (q : dot_S128x512_S512x256_S128x256_1_0_0_1_n_n.contr.Idx) :
    (dot_S128x512_S512x256_S128x256_1_0_0_1_n_n.lhsIdx i q 1).val = (q ⟨0, by decide⟩).val :=
  dot_S128x512_S512x256_S128x256_1_0_0_1_n_n.lhsIdx_val_of_single rfl i q

/-- The right index takes the contraction position on its axis 0. -/
theorem dot_rhs_0 (i : S128x256.Idx) (q : dot_S128x512_S512x256_S128x256_1_0_0_1_n_n.contr.Idx) :
    (dot_S128x512_S512x256_S128x256_1_0_0_1_n_n.rhsIdx i q 0).val = (q ⟨0, by decide⟩).val :=
  dot_S128x512_S512x256_S128x256_1_0_0_1_n_n.rhsIdx_val_of_single rfl i q

/-- The right index takes the output column on its axis 1. -/
theorem dot_rhs_1 (i : S128x256.Idx) (q : dot_S128x512_S512x256_S128x256_1_0_0_1_n_n.contr.Idx) :
    (dot_S128x512_S512x256_S128x256_1_0_0_1_n_n.rhsIdx i q 1).val = (i 1).val := by
  unfold DotDims.rhsIdx
  rw [dif_neg (show ¬(1 : Fin S512x256.rank) ∈ dot_S128x512_S512x256_S128x256_1_0_0_1_n_n.rhsBatch by decide),
    dif_pos (show (1 : Fin S512x256.rank) ∈ dot_S128x512_S512x256_S128x256_1_0_0_1_n_n.rhsNonContracting by decide)]
  rfl

/-- Entry (r, d) of the exponentials: exp of the logit minus its row's maximum. -/
theorem pay25_apply (Sc : Vec Ideal S128x512 .f32) (r : Fin 128) (d : Fin 512) :
    k0_pay25 (F := Ideal) Sc (ix2 r d)
      = Ideal.exp (Sc (ix2 r d) - Cert.Attn.rowMax (fun d' : Fin 512 => Sc (ix2 r d'))) := by
  unfold k0_pay25
  refine congrArg (fun m => Ideal.exp (Sc (ix2 r d) - m)) ?_
  refine (Cert.RowReduce.keepdims_apply _ _ _ r d).trans ?_
  exact Cert.RowReduce.rowMax_apply Sc _ _ _ _ r

/-- Entry (r, d) of the spread-back row sums: the sum of row r's exponentials, whatever d. -/
theorem pay26_apply (Sc : Vec Ideal S128x512 .f32) (r : Fin 128) (d : Fin 512) :
    k0_pay26 (F := Ideal) Sc (ix2 r d)
      = ∑ d' : Fin 512, Ideal.exp (Sc (ix2 r d') - Cert.Attn.rowMax (fun d'' : Fin 512 => Sc (ix2 r d''))) := by
  unfold k0_pay26
  refine (Cert.RowReduce.keepdims_apply _ _ _ r d).trans ?_
  refine (Cert.RowReduce.rowSum_apply _ _ _ _ _ r).trans ?_
  exact Finset.sum_congr rfl fun d' _ => pay25_apply Sc r d'

/-- Entry (0, r, s) of the stored block, from any numerators `A`, denominators `B` and values `V`:
    Σ_d (A(r,d) / B(r,d)) · V(0,d,s). The two narrowings are the identity on the extended reals. -/
theorem pay1_apply (A B : FVec Ideal S128x512 .f32) (V : Vec Ideal S1x512x256 .f32) (r : Fin 128) (s : Fin 256) :
    k0_pay1 (F := Ideal) A B V (ix3 (0 : Fin 1) r s)
      = ∑ d : Fin 512, Ideal.div (A (ix2 r d)) (B (ix2 r d)) * V (ix3 (0 : Fin 1) d s) := by
  unfold k0_pay1
  refine (shapeCast_addUnit_apply ![128, 256] _ _ (ix3 (0 : Fin 1) r s)).trans ?_
  have e : ((fun a => (ix3 (0 : Fin 1) r s) a.succ : (⟨2, ![128, 256]⟩ : Shape).Idx)) = ix2 r s :=
    funext fun a => by
      match a with
      | ⟨0, _⟩ => rfl
      | ⟨1, _⟩ => rfl
  refine (congrArg _ e).trans ?_
  refine (Cert.DenseLayer.matmul_rows_cols dot_S128x512_S512x256_S128x256_1_0_0_1_n_n rfl rfl
    dot_lhs_0 dot_lhs_1 dot_rhs_0 dot_rhs_1 none _ _ r s).trans ?_
  refine Finset.sum_congr rfl fun d _ => ?_
  refine congrArg (fun w => Ideal.div (A (ix2 r d)) (B (ix2 r d)) * w) ?_
  refine (shapeCast_dropUnit_apply ![512, 256] V _ (ix2 d s)).trans ?_
  refine congrArg V (funext fun a => ?_)
  match a with
  | ⟨0, _⟩ => rfl
  | ⟨1, _⟩ => rfl
  | ⟨2, _⟩ => rfl

/-- Entry (0, r, s) of the stored result, from the block of logits `Sc` and the value block `V`: the softmax of row r
    of the logits applied to column s of the values. -/
theorem tail_apply (Sc : Vec Ideal S128x512 .f32) (V : Vec Ideal S1x512x256 .f32) (r : Fin 128) (s : Fin 256) :
    k0_pay1 (F := Ideal) (k0_pay25 Sc) (k0_pay26 Sc) V (ix3 (0 : Fin 1) r s)
      = Cert.Attn.softSum (fun d : Fin 512 => Sc (ix2 r d)) (fun d : Fin 512 => V (ix3 (0 : Fin 1) d s)) := by
  refine (pay1_apply _ _ V r s).trans ?_
  unfold Cert.Attn.softSum
  refine Finset.sum_congr rfl fun d _ => ?_
  rw [pay25_apply, pay26_apply]

end Cert.KernelIdeal.Tail

end
-- ==== Proof.Body.lean ====
/-
  What one run of the body leaves in the output block, as a function of the three input blocks.
-/
import proofs.«114668_j51316269253360_2_alg».proof.Proof.Gen.KernelIdeal.Frame
import proofs.«114668_j51316269253360_2_alg».proof.Proof.Logits
import proofs.«114668_j51316269253360_2_alg».proof.Proof.Tail
import Idealize.ShloMosaic.Lib.Pipeline.Value

set_option maxRecDepth 16384

noncomputable section

namespace Cert.KernelIdeal.Body

open Cert.KernelIdeal Cert.KernelIdeal.Gen Idealize.ShloMosaic Idealize.ShloMosaic.TcCoe Idealize.SL.Sem
open Idealize.ShloMosaic.Tactic Idealize.ShloMosaic.ValueIdx

variable {F : FTy → Type} [FloatOps F]

/-- The output block after the body: the softmax-and-product tail applied to the assembled block of logits and the
    value block. -/
theorem out_eq (c : Dev nD) (i : grid0.Coords) (arg2 : Memref sig .tc .vmem S1x128x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x128x256 .f32) (harg5 : arg5.IsWhole) (arg6 : Memref sig .tc .vmem S128x512 .f32) (harg6 : arg6.IsWhole)
    (x0 : Vec F S1x128x256 .f32) (x1 : Vec F S1x512x256 .f32) (x2 : Vec F S1x512x256 .f32) :
    out0_A_3 c i arg2 harg2 arg3 harg3 arg4 harg4 arg5 harg5 arg6 harg6 x0 x1 x2
      = k0_pay1 (k0_pay25 (View.canon (Logits.pieces x0 x1))) (k0_pay26 (View.canon (Logits.pieces x0 x1))) x2 := by
  have hz3 : (![0, 0, 0] : Fin 3 → ℕ) = fun _ => 0 := funext fun a => by fin_cases a <;> rfl
  have hz2 : (![0, 0] : Fin 2 → ℕ) = fun _ => 0 := funext fun a => by fin_cases a <;> rfl
  -- the load of the whole block of logits, after the sixteen stores that tile it, reads their assembled contents
  have hscr : arg6.view.readCov (Logits.pieces x0 x1)
      (Rect.unit ![0, 0] S128x512.size inb_S128x512_S128x512_0_0).toLoadRect = View.canon (Logits.pieces x0 x1) := by
    rw [View.readCov_eq_canon_ld _ _ _ (Logits.pieces_cover x0 x1), View.ld_unit_zero hz2]
  rw [← hscr]
  unfold out0_A_3
  rw [View.read_writes_eq_canon _ _ _ (cover0_A_3 c i arg2 harg2 arg3 harg3 arg4 harg4 arg5 harg5 arg6 harg6 x0 x1 x2)]
  unfold kernelRun0_A
  dsimp only
  sl_unfold_words
  rw [View.canon_unit_zero hz3]
  simp only [View.readAt_eq_ld, harg2.read_unread, harg3.read_unread, harg4.read_unread,
    View.ld_unit_zero (S := S1x128x256) hz3, View.ld_unit_zero (S := S1x512x256) hz3]
  rfl

/-- Entry (0, r, s) of the output block: the softmax of the logits of query row r against the 512 key rows, applied to
    column s of the value block. -/
theorem out_apply (c : Dev nD) (i : grid0.Coords) (arg2 : Memref sig .tc .vmem S1x128x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x128x256 .f32) (harg5 : arg5.IsWhole) (arg6 : Memref sig .tc .vmem S128x512 .f32) (harg6 : arg6.IsWhole)
    (x0 : Vec Ideal S1x128x256 .f32) (x1 : Vec Ideal S1x512x256 .f32) (x2 : Vec Ideal S1x512x256 .f32)
    (r : Fin 128) (s : Fin 256) :
    out0_A_3 (F := Ideal) c i arg2 harg2 arg3 harg3 arg4 harg4 arg5 harg5 arg6 harg6 x0 x1 x2 (ix3 (0 : Fin 1) r s)
      = Cert.Attn.softSum
          (fun d : Fin 512 => Cert.Attn.logit (fun s' : Fin 256 => x0 (ix3 (0 : Fin 1) r s')) (fun s' : Fin 256 => x1 (ix3 (0 : Fin 1) d s')))
          (fun d : Fin 512 => x2 (ix3 (0 : Fin 1) d s)) := by
  rw [out_eq, Tail.tail_apply]
  simp only [Logits.canon_pieces_apply]

end Cert.KernelIdeal.Body

end
-- ==== Proof.Whole.lean ====
/-
  From what each grid point writes back to the whole result array, and the kernel's run with its result named.
-/
import proofs.«114668_j51316269253360_2_alg».proof.Proof.Gen.KernelIdeal.Value
import proofs.«114668_j51316269253360_2_alg».proof.Proof.Body
import Idealize.ShloMosaic.Lib.Pipeline.Value
import Idealize.ShloMosaic.Lib.ValueIdx

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The block indices of the four windows over the grid: the query and output windows move together, the key and value
    windows follow the batch only, and every last block index is 0. -/
theorem idx_facts : ∀ t : Fin cfg0.N,
    win0_0.index t (0 : Fin 3) = win0_3.index t (0 : Fin 3)
    ∧ win0_0.index t (1 : Fin 3) = win0_3.index t (1 : Fin 3)
    ∧ win0_0.index t (2 : Fin 3) = 0
    ∧ win0_1.index t (0 : Fin 3) = win0_3.index t (0 : Fin 3)
    ∧ win0_1.index t (1 : Fin 3) = 0
    ∧ win0_1.index t (2 : Fin 3) = 0
    ∧ win0_2.index t (0 : Fin 3) = win0_3.index t (0 : Fin 3)
    ∧ win0_2.index t (1 : Fin 3) = 0
    ∧ win0_2.index t (2 : Fin 3) = 0
    ∧ win0_3.index t (2 : Fin 3) = 0
    ∧ win0_3.index t (0 : Fin 3) ≤ 1
    ∧ win0_3.index t (1 : Fin 3) ≤ 3 :=
  (by decide +kernel : ∀ t : Fin grid0.N, _)

/-- Every (batch, query block) pair is the output block index of some grid point. -/
theorem idx_onto : ∀ (n : Fin 2) (qi : Fin 4), ∃ t : Fin cfg0.N, win0_3.index t = ![n.val, qi.val, 0] :=
  (by decide +kernel : ∀ (n : Fin 2) (qi : Fin 4), ∃ t : Fin grid0.N, win0_3.index t = ![n.val, qi.val, 0])

/-- The attention array of the three argument arrays as the kernel finds them. -/
abbrev G (c : Dev nD) : Buf (Elt Ideal) ((c : Thread nD τ).loc main_v0) :=
  Cert.Attn.attnArr (V m c main_arg0) (V m c main_arg1) (V m c main_arg2)

/-- Entry (0, r, s) of the query block at a grid point is the query array at (n, 128·qi + r, s), where (n, qi, 0) is the
    point's output block index. -/
theorem query_blk (c : Dev nD) (t : Fin cfg0.N) (r : Fin 128) (s : Fin 256) (i : S2x512x256.Idx)
    (h0 : (i 0).val = win0_3.index t (0 : Fin 3)) (h1 : (i 1).val = win0_3.index t (1 : Fin 3) * 128 + r.val)
    (h2 : (i 2).val = s.val) :
    iblk m c 0 t (ix3 (0 : Fin 1) r s) = V m c main_arg0 i := by
  obtain ⟨e0, e1, e2, -⟩ := idx_facts t
  unfold iblk
  rw [View.read_apply]
  show V m c main_arg0 _ = V m c main_arg0 i
  congr 1
  funext a
  apply Fin.ext
  match a with
  | ⟨0, _⟩ => show win0_0.index t (0 : Fin 3) * 1 + 1 * ((0 : Fin 1) : ℕ) = (i 0).val; rw [e0, h0]; simp
  | ⟨1, _⟩ => show win0_0.index t (1 : Fin 3) * 128 + 1 * r.val = (i 1).val; rw [e1, h1]; omega
  | ⟨2, _⟩ => show win0_0.index t (2 : Fin 3) * 256 + 1 * s.val = (i 2).val; rw [e2, h2]; omega

/-- Entry (0, d, s) of the key block at a grid point is the key array at (n, d, s), n the point's batch. -/
theorem key_blk (c : Dev nD) (t : Fin cfg0.N) (d : Fin 512) (s : Fin 256) (i : S2x512x256.Idx)
    (h0 : (i 0).val = win0_3.index t (0 : Fin 3)) (h1 : (i 1).val = d.val) (h2 : (i 2).val = s.val) :
    iblk m c 1 t (ix3 (0 : Fin 1) d s) = V m c main_arg1 i := by
  obtain ⟨-, -, -, e0, e1, e2, -⟩ := idx_facts t
  unfold iblk
  rw [View.read_apply]
  show V m c main_arg1 _ = V m c main_arg1 i
  congr 1
  funext a
  apply Fin.ext
  match a with
  | ⟨0, _⟩ => show win0_1.index t (0 : Fin 3) * 1 + 1 * ((0 : Fin 1) : ℕ) = (i 0).val; rw [e0, h0]; simp
  | ⟨1, _⟩ => show win0_1.index t (1 : Fin 3) * 512 + 1 * d.val = (i 1).val; rw [e1, h1]; omega
  | ⟨2, _⟩ => show win0_1.index t (2 : Fin 3) * 256 + 1 * s.val = (i 2).val; rw [e2, h2]; omega

/-- Entry (0, d, s) of the value block at a grid point is the value array at (n, d, s), n the point's batch. -/
theorem value_blk (c : Dev nD) (t : Fin cfg0.N) (d : Fin 512) (s : Fin 256) (i : S2x512x256.Idx)
    (h0 : (i 0).val = win0_3.index t (0 : Fin 3)) (h1 : (i 1).val = d.val) (h2 : (i 2).val = s.val) :
    iblk m c 2 t (ix3 (0 : Fin 1) d s) = V m c main_arg2 i := by
  obtain ⟨-, -, -, -, -, -, e0, e1, e2, -⟩ := idx_facts t
  unfold iblk
  rw [View.read_apply]
  show V m c main_arg2 _ = V m c main_arg2 i
  congr 1
  funext a
  apply Fin.ext
  match a with
  | ⟨0, _⟩ => show win0_2.index t (0 : Fin 3) * 1 + 1 * ((0 : Fin 1) : ℕ) = (i 0).val; rw [e0, h0]; simp
  | ⟨1, _⟩ => show win0_2.index t (1 : Fin 3) * 512 + 1 * d.val = (i 1).val; rw [e1, h1]; omega
  | ⟨2, _⟩ => show win0_2.index t (2 : Fin 3) * 256 + 1 * s.val = (i 2).val; rw [e2, h2]; omega

/-- What a grid point writes back is its block of the attention array. -/
theorem flushed_eq (c : Dev nD) (t : Fin cfg0.N) :
    (dats m 0 c).flushed 3 t = ((cfg0.win 3).blk t).view.read (Elt Ideal) (G m c) := by
  rw [Value.flushed3_A]
  funext y
  obtain ⟨z, r, s, rfl⟩ : ∃ (z : Fin 1) (r : Fin 128) (s : Fin 256), y = ix3 z r s := ⟨y 0, y 1, y 2, eq_ix3 y⟩
  obtain rfl : z = 0 := Subsingleton.elim _ _
  rw [View.read_apply]
  obtain ⟨-, -, -, -, -, -, -, -, -, e9, -⟩ := idx_facts t
  have hi0 : ((((cfg0.win 3).blk t).view.emb (ix3 (0 : Fin 1) r s)) 0).val = win0_3.index t (0 : Fin 3) := by
    show win0_3.index t (0 : Fin 3) * 1 + 1 * ((0 : Fin 1) : ℕ) = _; simp
  have hi1 : ((((cfg0.win 3).blk t).view.emb (ix3 (0 : Fin 1) r s)) 1).val = win0_3.index t (1 : Fin 3) * 128 + r.val := by
    show win0_3.index t (1 : Fin 3) * 128 + 1 * r.val = _; omega
  have hi2 : ((((cfg0.win 3).blk t).view.emb (ix3 (0 : Fin 1) r s)) 2).val = s.val := by
    show win0_3.index t (2 : Fin 3) * 256 + 1 * s.val = _; rw [e9]; omega
  refine (Body.out_apply c (grid0.coords t) (ms0_0 t) (hs0_0 t) (ms0_1 t) (hs0_1 t) (ms0_2 t) (hs0_2 t) (ms0_3 t) (hs0_3 t)
    scM0_0 (Memref.isWhole_whole _) (iblk m c 0 t) (iblk m c 1 t) (iblk m c 2 t) r s).trans ?_
  show _ = Cert.Attn.attn (V m c main_arg0) (V m c main_arg1) (V m c main_arg2)
    ((((cfg0.win 3).blk t).view.emb (ix3 (0 : Fin 1) r s)) 0) ((((cfg0.win 3).blk t).view.emb (ix3 (0 : Fin 1) r s)) 1)
    ((((cfg0.win 3).blk t).view.emb (ix3 (0 : Fin 1) r s)) 2)
  exact congrArg₂ Cert.Attn.softSum
    (funext fun d => congrArg₂ Cert.Attn.logit
      (funext fun s' => query_blk m c t r s' _ hi0 hi1 rfl)
      (funext fun s' => key_blk m c t d s' _ hi0 rfl rfl))
    (funext fun d => value_blk m c t d s _ hi0 rfl hi2)

/-- An index of the result array is in a grid point's block iff each coordinate is in the block's range on its axis. -/
theorem mem_blk (t : Fin cfg0.N) (i : S2x512x256.Idx) :
    i ∈ ((cfg0.win 3).blk t).view.set ↔ ∀ a : Fin 3, win0_3.index t a * S1x128x256.size a ≤ (i a).val ∧ (i a).val < win0_3.index t a * S1x128x256.size a + S1x128x256.size a := by
  show i ∈ ((View.whole main_v0).slice (win0_3.rect t)).set ↔ _
  rw [View.set_slice_whole, Rect.mem_set_unit]
  exact Iff.rfl

/-- Every index (n, c, s) of the result array is in the block of the point whose output block index is (n, c / 128, 0). -/
theorem cover (i : S2x512x256.Idx) :
    ∃ t : Fin cfg0.N, (cfg0.win 3).flush t = true ∧ i ∈ ((cfg0.win 3).blk t).view.set := by
  have hi0 : (i 0).val < 2 := (i 0).isLt
  have hi1 : (i 1).val < 512 := (i 1).isLt
  have hi2 : (i 2).val < 256 := (i 2).isLt
  obtain ⟨t, ht⟩ := idx_onto ⟨(i 0).val, hi0⟩ ⟨(i 1).val / 128, by omega⟩
  have q0 : win0_3.index t (0 : Fin 3) = (i 0).val := congrFun ht 0
  have q1 : win0_3.index t (1 : Fin 3) = (i 1).val / 128 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 128 ≤ (i 1).val ∧ (i 1).val < win0_3.index t (1 : Fin 3) * 128 + 128; omega
  | ⟨2, _⟩ => show win0_3.index t (2 : Fin 3) * 256 ≤ (i 2).val ∧ (i 2).val < win0_3.index t (2 : Fin 3) * 256 + 256; omega

/-- After the last grid point the result array is the attention array of the three arguments. -/
theorem final (c : Dev nD) : (dats m 0 c).arrAt 3 cfg0.N = G m c :=
  (dats m 0 c).arrAt_eq_of_cover 3 (G m c) (fun t _ => flushed_eq m c t) cover

/-- After the run the result array is the attention value of the three argument arrays, which are unchanged. -/
theorem run : θ_run defs (onTc (τ := τ) (main (F := Ideal))) ⟨m, fun _ => 0, ρ⟩ fun r => ∀ c : Dev nD,
      r.2.mem ((c : Thread nD τ).loc main_v0)
        = Cert.Attn.attnArr (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.RefValue.lean ====
/-
  The reference's result, entry by entry, is the attention value of its three arguments.

  The reference is read one stage at a time, each at explicit coordinates: the logits of a query row against every key
  row (minus half the L1 distance), the row maximum folded from −∞, the exponentials of the logits less the maximum,
  their sum, the quotient, and the contraction of the weights with the values.
-/
import proofs.«114668_j51316269253360_2_alg».proof.Proof.Gen.ReferenceIdeal.Read
import proofs.«114668_j51316269253360_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx

/-- The scaled absolute difference of key row `d` and query row `c` at feature `s`: `|k(n,d,s) − q(n,c,s)| / 2`. -/
theorem v7_at (x0 x1 : (⟨S2x512x256, .f32⟩ : BufTy).Contents (Elt Ideal)) (n : Fin 2) (c d : Fin 512) (s : Fin 256) :
    Read.val_main_v7 (F := Ideal) x0 x1 (ix4 n c d s)
      = Ideal.div (max (x1 (ix3 n d s) - x0 (ix3 n c s)) (-(x1 (ix3 n d s) - x0 (ix3 n c s))))
          (Ideal.ofBits .f32 0x40000000#32) := by
  rw [Read.val_main_v7_apply, Read.val_main_v6_apply, Read.val_main_cst_apply, Read.val_main_v5_apply,
    Read.val_main_v4_apply, Read.val_main_v2_apply, Read.val_main_v0_apply, Read.val_main_v3_apply,
    Read.val_main_v1_apply]
  have e1 : Read.idx_main_v0 (Read.idx_main_v2 (ix4 n c d s)) = ix3 n d s :=
    funext fun a => Fin.ext (by match a with | ⟨0, _⟩ => rfl | ⟨1, _⟩ => rfl | ⟨2, _⟩ => rfl)
  have e2 : Read.idx_main_v1 (Read.idx_main_v3 (ix4 n c d s)) = ix3 n c s :=
    funext fun a => Fin.ext (by match a with | ⟨0, _⟩ => rfl | ⟨1, _⟩ => rfl | ⟨2, _⟩ => rfl)
  rw [e1, e2]
  rfl

/-- The logit of query row `c` against key row `d`. -/
theorem v9_at (x0 x1 : (⟨S2x512x256, .f32⟩ : BufTy).Contents (Elt Ideal)) (n : Fin 2) (c d : Fin 512) :
    Read.val_main_v9 (F := Ideal) x0 x1 (ix3 n c d)
      = Cert.Attn.logit (fun s : Fin 256 => x0 (ix3 n c s)) (fun s : Fin 256 => x1 (ix3 n d s)) := by
  rw [Read.val_main_v9_apply, Read.val_main_v8_apply, Read.val_main_cst_0_apply]
  refine Eq.trans ?_ (Cert.Attn.neg_sum_halves (fun s : Fin 256 => x0 (ix3 n c s)) (fun s : Fin 256 => x1 (ix3 n d s)))
  refine congrArg (fun t : EReal => -(Ideal.ofBits .f32 0x00000000#32 + t)) (Finset.sum_congr rfl fun s _ => ?_)
  have e : Read.idx_main_v8 (ix3 n c d) s = ix4 n c d s :=
    funext fun a => Fin.ext (by match a with | ⟨0, _⟩ => rfl | ⟨1, _⟩ => rfl | ⟨2, _⟩ => rfl | ⟨3, _⟩ => rfl)
  rw [e]
  exact v7_at x0 x1 n c d s

/-- A result index of the row maximum with key row `k` put back on the reduced axis is (n, c, k). -/
theorem lift_at (h : S2x512x512.Reduces [2] S2x512) (n : Fin 2) (c : Fin 512) (k : Fin (S2x512x512.size 2)) :
    h.lift (ix2 n c) k = ix3 n c (⟨k.val, k.isLt⟩ : Fin 512) :=
  funext fun a => Fin.ext (by match a with | ⟨0, _⟩ => rfl | ⟨1, _⟩ => rfl | ⟨2, _⟩ => rfl)

/-- The max-reduce over the key axis, at (n, c), is the fold of `max` from −∞ over the row's logits. -/
theorem v10_at (x0 x1 : (⟨S2x512x256, .f32⟩ : BufTy).Contents (Elt Ideal)) (n : Fin 2) (c : Fin 512) :
    Read.val_main_v10 (F := Ideal) x0 x1 (ix2 n c)
      = (Finset.univ : Finset (Fin 512)).fold max (Ideal.ofBits .f32 0xFF800000#32)
          (fun d : Fin 512 => Read.val_main_v9 (F := Ideal) x0 x1 (ix3 n c d)) := by
  have h : S2x512x512.Reduces [2] S2x512 := by decide
  unfold Read.val_main_v10
  rw [Host.reduce_eq_fold_single FloatOps.maximumf _ _ reducesTo_S2x512x512_S2x512_d2 h h_S_]
  have hf : (Read.val_main_v9 (F := Ideal) x0 x1 ∘ h.lift (ix2 n c))
      = fun d : Fin 512 => Read.val_main_v9 (F := Ideal) x0 x1 (ix3 n c d) :=
    funext fun k => congrArg (Read.val_main_v9 (F := Ideal) x0 x1) (lift_at h n c k)
  exact congrArg (fun f => Finset.fold max (Ideal.ofBits .f32 0xFF800000#32) f (Finset.univ : Finset (Fin 512))) hf

/-- The row maximum the reference subtracts: the maximum with −∞ changes nothing. -/
theorem v12_at (x0 x1 : (⟨S2x512x256, .f32⟩ : BufTy).Contents (Elt Ideal)) (n : Fin 2) (c : Fin 512) :
    Read.val_main_v12 (F := Ideal) x0 x1 (ix2 n c)
      = Cert.Attn.rowMax (fun d : Fin 512 =>
          Cert.Attn.logit (fun s : Fin 256 => x0 (ix3 n c s)) (fun s : Fin 256 => x1 (ix3 n d s))) := by
  rw [Read.val_main_v12_apply, Read.val_main_v11_apply, Read.val_main_cst_2_apply, v10_at]
  have hf : (fun d : Fin 512 => Read.val_main_v9 (F := Ideal) x0 x1 (ix3 n c d))
      = fun d : Fin 512 => Cert.Attn.logit (fun s : Fin 256 => x0 (ix3 n c s)) (fun s : Fin 256 => x1 (ix3 n d s)) :=
    funext fun d => v9_at x0 x1 n c d
  rw [hf]
  unfold Cert.Attn.rowMax
  exact max_eq_right ((Finset.le_fold_max _).2 (Or.inl le_rfl))

/-- The exponential of a logit less the row maximum. -/
theorem v16_at (x0 x1 : (⟨S2x512x256, .f32⟩ : BufTy).Contents (Elt Ideal)) (n : Fin 2) (c d : Fin 512) :
    Read.val_main_v16 (F := Ideal) x0 x1 (ix3 n c d)
      = Ideal.exp (Cert.Attn.logit (fun s : Fin 256 => x0 (ix3 n c s)) (fun s : Fin 256 => x1 (ix3 n d s))
          - Cert.Attn.rowMax (fun d' : Fin 512 =>
              Cert.Attn.logit (fun s : Fin 256 => x0 (ix3 n c s)) (fun s : Fin 256 => x1 (ix3 n d' s)))) := by
  rw [Read.val_main_v16_apply, Read.val_main_v15_apply, Read.val_main_v14_apply, Read.val_main_v13_apply]
  have e : Read.idx_main_v13 (Read.idx_main_v14 (ix3 n c d)) = ix2 n c :=
    funext fun a => Fin.ext (by match a with | ⟨0, _⟩ => rfl | ⟨1, _⟩ => rfl)
  rw [e, v9_at, v12_at]
  rfl

/-- The sum of the row's exponentials. -/
theorem v17_at (x0 x1 : (⟨S2x512x256, .f32⟩ : BufTy).Contents (Elt Ideal)) (n : Fin 2) (c : Fin 512) :
    Read.val_main_v17 (F := Ideal) x0 x1 (ix2 n c)
      = ∑ d : Fin 512,
          Ideal.exp (Cert.Attn.logit (fun s : Fin 256 => x0 (ix3 n c s)) (fun s : Fin 256 => x1 (ix3 n d s))
            - Cert.Attn.rowMax (fun d' : Fin 512 =>
                Cert.Attn.logit (fun s : Fin 256 => x0 (ix3 n c s)) (fun s : Fin 256 => x1 (ix3 n d' s)))) := by
  rw [Read.val_main_v17_apply, Read.val_main_cst_3_apply, Ideal.ofBits_def, Ideal.ofBits_zero_f32, zero_add]
  refine Finset.sum_congr rfl fun d _ => ?_
  have e : Read.idx_main_v17 (ix2 n c) d = ix3 n c d :=
    funext fun a => Fin.ext (by match a with | ⟨0, _⟩ => rfl | ⟨1, _⟩ => rfl | ⟨2, _⟩ => rfl)
  rw [e]
  exact v16_at x0 x1 n c d

/-- The softmax weight of key row `d` for query row `c`. -/
theorem v20_at (x0 x1 : (⟨S2x512x256, .f32⟩ : BufTy).Contents (Elt Ideal)) (n : Fin 2) (c d : Fin 512) :
    Read.val_main_v20 (F := Ideal) x0 x1 (ix3 n c d)
      = Ideal.div
          (Ideal.exp (Cert.Attn.logit (fun s : Fin 256 => x0 (ix3 n c s)) (fun s : Fin 256 => x1 (ix3 n d s))
            - Cert.Attn.rowMax (fun d' : Fin 512 =>
                Cert.Attn.logit (fun s : Fin 256 => x0 (ix3 n c s)) (fun s : Fin 256 => x1 (ix3 n d' s)))))
          (∑ d'' : Fin 512,
            Ideal.exp (Cert.Attn.logit (fun s : Fin 256 => x0 (ix3 n c s)) (fun s : Fin 256 => x1 (ix3 n d'' s))
              - Cert.Attn.rowMax (fun d' : Fin 512 =>
                  Cert.Attn.logit (fun s : Fin 256 => x0 (ix3 n c s)) (fun s : Fin 256 => x1 (ix3 n d' s))))) := by
  rw [Read.val_main_v20_apply, Read.val_main_v19_apply, Read.val_main_v18_apply]
  have e : Read.idx_main_v18 (Read.idx_main_v19 (ix3 n c d)) = ix2 n c :=
    funext fun a => Fin.ext (by match a with | ⟨0, _⟩ => rfl | ⟨1, _⟩ => rfl)
  rw [e, v16_at, v17_at]
  rfl

/-- The reference's last stage, as a whole array, is the attention value of the queries `x0`, the keys `x1` and the
    values `x2`. -/
theorem ref_eq (x0 x1 x2 : (⟨S2x512x256, .f32⟩ : BufTy).Contents (Elt Ideal)) :
    Read.val_main_v21 (F := Ideal) x0 x1 x2 = Cert.Attn.attnArr x0 x1 x2 := by
  funext i
  obtain ⟨n, c, s, rfl⟩ : ∃ (n : Fin 2) (c : Fin 512) (s : Fin 256), i = ix3 n c s := ⟨i 0, i 1, i 2, eq_ix3 i⟩
  rw [Read.val_main_v21_apply]
  unfold Cert.Attn.attnArr Cert.Attn.attn Cert.Attn.softSum
  refine Finset.sum_congr rfl fun d _ => ?_
  have el : Read.lidx_main_v21 (ix3 n c s) d = ix3 n c d :=
    funext fun a => Fin.ext (by match a with | ⟨0, _⟩ => rfl | ⟨1, _⟩ => rfl | ⟨2, _⟩ => rfl)
  have er : Read.ridx_main_v21 (ix3 n c s) d = ix3 n d s :=
    funext fun a => Fin.ext (by match a with | ⟨0, _⟩ => rfl | ⟨1, _⟩ => rfl | ⟨2, _⟩ => rfl)
  rw [el, er, v20_at]

end Cert.ReferenceIdeal.RefValue

end
-- ==== Proof.lean ====
/- The proof of `Cert.Claim`: a Laplace (L1-distance) attention kernel against its jnp reference.

   For queries q, keys k and values v, each [2, 512, 256], both programs compute, at (n, c, s),
       Σ_d softmax_d (−½ · Σ_s' |k(n,d,s') − q(n,c,s')|) · v(n,d,s),
   the softmax taken with the row maximum subtracted and an exact division (Proof/Spec.lean states it as one function,
   `Cert.Attn.attnArr`). The kernel tiles the query rows in blocks of 128 over a grid of 2 × 4 points, builds each
   block's 128 × 512 logits sixteen key rows-of-32 at a time (Proof/Chunk.lean, Proof/Logits.lean), takes the softmax and
   the product with the value block (Proof/Tail.lean, Proof/Body.lean), and the eight blocks tile the result
   (Proof/Whole.lean). The reference does the same on whole arrays (Proof/RefValue.lean). The two differ only in where
   the factor ½ sits — the kernel halves the negated sum, the reference halves every term before summing — and these
   agree on all extended reals because the terms are absolute values (Spec.lean, `neg_sum_halves`); everything after
   the logits is the same expression on both sides. No operation of the kernel was rewritten by the ideal pass, so the
   idealized kernel is the kernel's own text and `preserves` is trivial; the three frames are the generated ones. -/
import proofs.«114668_j51316269253360_2_alg».proof.Defs
import proofs.«114668_j51316269253360_2_alg».proof.Proof.Gen.Kernel
import proofs.«114668_j51316269253360_2_alg».proof.Proof.Gen.Kernel.Skeleton
import proofs.«114668_j51316269253360_2_alg».proof.Proof.Gen.Kernel.Launch
import proofs.«114668_j51316269253360_2_alg».proof.Proof.Gen.Kernel.Points
import proofs.«114668_j51316269253360_2_alg».proof.Proof.Gen.Kernel.Frame
import proofs.«114668_j51316269253360_2_alg».proof.Proof.Gen.KernelIdeal
import proofs.«114668_j51316269253360_2_alg».proof.Proof.Gen.KernelIdeal.Skeleton
import proofs.«114668_j51316269253360_2_alg».proof.Proof.Gen.KernelIdeal.Launch
import proofs.«114668_j51316269253360_2_alg».proof.Proof.Gen.KernelIdeal.Points
import proofs.«114668_j51316269253360_2_alg».proof.Proof.Gen.KernelIdeal.Frame
import proofs.«114668_j51316269253360_2_alg».proof.Proof.Gen.ReferenceIdeal
import proofs.«114668_j51316269253360_2_alg».proof.Proof.Gen.KernelIdeal.Value
import proofs.«114668_j51316269253360_2_alg».proof.Proof.Gen.ReferenceIdeal.Run
import proofs.«114668_j51316269253360_2_alg».proof.Proof.Gen.ReferenceIdeal.Read
import proofs.«114668_j51316269253360_2_alg».proof.Proof.Gen.Pre_finite_inputs
import proofs.«114668_j51316269253360_2_alg».proof.Proof.Whole
import proofs.«114668_j51316269253360_2_alg».proof.Proof.RefValue
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both runs end with the attention value of the (agreeing) arguments in their result arrays. -/
theorem algebraic : Cert.algebraic_KernelIdeal_ReferenceIdeal := by
  intro m ρ m' ρ' _ hagree
  refine ⟨fun c => Cert.Attn.attnArr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.ref_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
